-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  main_v38

def fn_part1 {F : FTy → Type} [FloatOps F] (main_arg4 : FVec F S256x128 .f32) (main_arg5 : FVec F S128x256 .f32) (main_arg6 : FVec F S256x256 .f32) (main_arg7 : FVec F S256x512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x8192 .f32) (main_arg2 : FVec F S512x256 .f32) (main_arg3 : FVec F S256x256 .f32) (main_arg4 : FVec F S256x128 .f32) (main_arg5 : FVec F S128x256 .f32) (main_arg6 : FVec F S256x256 .f32) (main_arg7 : FVec F S256x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S8192x256 : Shape := ⟨2, ![8192, 256]⟩
abbrev S256x8192 : Shape := ⟨2, ![256, 8192]⟩
abbrev S8192x128 : Shape := ⟨2, ![8192, 128]⟩
abbrev S512x8192 : Shape := ⟨2, ![512, 8192]⟩
abbrev S512x128 : Shape := ⟨2, ![512, 128]⟩
abbrev S512x512 : Shape := ⟨2, ![512, 512]⟩

abbrev nBuf : Space → Nat
  | .hbm => 24
  | .vmem => 37
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256x128, .f32⟩
  | .hbm, ⟨5, _⟩ => ⟨S128x256, .f32⟩
  | .hbm, ⟨6, _⟩ => ⟨S256x256, .f32⟩
  | .hbm, ⟨7, _⟩ => ⟨S256x512, .f32⟩
  | .hbm, ⟨8, _⟩ => ⟨S512x256, .bf16⟩
  | .hbm, ⟨9, _⟩ => ⟨S256x256, .bf16⟩
  | .hbm, ⟨10, _⟩ => ⟨S256x128, .bf16⟩
  | .hbm, ⟨11, _⟩ => ⟨S128x256, .bf16⟩
  | .hbm, ⟨12, _⟩ => ⟨S256x256, .bf16⟩
  | .hbm, ⟨13, _⟩ => ⟨S256x512, .bf16⟩
  | .hbm, ⟨14, _⟩ => ⟨S8192x512, .bf16⟩
  | .hbm, ⟨15, _⟩ => ⟨S8192x256, .f32⟩
  | .hbm, ⟨16, _⟩ => ⟨S8192x256, .bf16⟩
  | .hbm, ⟨17, _⟩ => ⟨S8192x8192, .bf16⟩
  | .hbm, ⟨18, _⟩ => ⟨S8192x256, .bf16⟩
  | .hbm, ⟨19, _⟩ => ⟨S8192x128, .bf16⟩
  | .hbm, ⟨20, _⟩ => ⟨S8192x256, .bf16⟩
  | .hbm, ⟨21, _⟩ => ⟨S8192x256, .bf16⟩
  | .hbm, ⟨22, _⟩ => ⟨S8192x512, .bf16⟩
  | .hbm, ⟨23, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S8192x256, .bf16⟩
  | .local _ .vmem, ⟨3, _⟩ => ⟨S256x256, .bf16⟩
  | .local _ .vmem, ⟨4, _⟩ => ⟨S256x8192, .bf16⟩
  | .local _ .vmem, ⟨5, _⟩ => ⟨S256x8192, .bf16⟩
  | .local _ .vmem, ⟨6, _⟩ => ⟨S256x256, .bf16⟩
  | .local _ .vmem, ⟨7, _⟩ => ⟨S256x256, .bf16⟩
  | .local _ .vmem, ⟨8, _⟩ => ⟨S512x8192, .bf16⟩
  | .local _ .vmem, ⟨9, _⟩ => ⟨S512x8192, .bf16⟩
  | .local _ .vmem, ⟨10, _⟩ => ⟨S8192x256, .bf16⟩
  | .local _ .vmem, ⟨11, _⟩ => ⟨S256x128, .bf16⟩
  | .local _ .vmem, ⟨12, _⟩ => ⟨S512x128, .bf16⟩
  | .local _ .vmem, ⟨13, _⟩ => ⟨S512x128, .bf16⟩
  | .local _ .vmem, ⟨14, _⟩ => ⟨S512x8192, .bf16⟩
  | .local _ .vmem, ⟨15, _⟩ => ⟨S512x8192, .bf16⟩
  | .local _ .vmem, ⟨16, _⟩ => ⟨S8192x128, .bf16⟩
  | .local _ .vmem, ⟨17, _⟩ => ⟨S128x256, .bf16⟩
  | .local _ .vmem, ⟨18, _⟩ => ⟨S512x256, .bf16⟩
  | .local _ .vmem, ⟨19, _⟩ => ⟨S512x256, .bf16⟩
  | .local _ .vmem, ⟨20, _⟩ => ⟨S512x8192, .bf16⟩
  | .local _ .vmem, ⟨21, _⟩ => ⟨S512x8192, .bf16⟩
  | .local _ .vmem, ⟨22, _⟩ => ⟨S8192x256, .bf16⟩
  | .local _ .vmem, ⟨23, _⟩ => ⟨S256x256, .bf16⟩
  | .local _ .vmem, ⟨24, _⟩ => ⟨S512x256, .bf16⟩
  | .local _ .vmem, ⟨25, _⟩ => ⟨S512x256, .bf16⟩
  | .local _ .vmem, ⟨26, _⟩ => ⟨S512x8192, .bf16⟩
  | .local _ .vmem, ⟨27, _⟩ => ⟨S512x8192, .bf16⟩
  | .local _ .vmem, ⟨28, _⟩ => ⟨S8192x256, .bf16⟩
  | .local _ .vmem, ⟨29, _⟩ => ⟨S256x512, .bf16⟩
  | .local _ .vmem, ⟨30, _⟩ => ⟨S512x512, .bf16⟩
  | .local _ .vmem, ⟨31, _⟩ => ⟨S512x512, .bf16⟩
  | .local _ .vmem, ⟨32, _⟩ => ⟨S512x8192, .bf16⟩
  | .local _ .vmem, ⟨33, _⟩ => ⟨S512x8192, .bf16⟩
  | .local _ .vmem, ⟨34, _⟩ => ⟨S8192x512, .bf16⟩
  | .local _ .vmem, ⟨35, _⟩ => ⟨S512x512, .f32⟩
  | .local _ .vmem, ⟨36, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x512 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  dot_S8192x512_S512x256_S8192x256_1_0_0_1_n_n_wf : DotDims.WF S8192x512 S512x256 S8192x256 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  dot_S512x8192_S8192x256_S512x256_1_0_0_1_n_n_wf : DotDims.WF S512x8192 S8192x256 S512x256 [1] [0] [0] [1] [] []
  dot_S512x256_S256x128_S512x128_1_0_0_1_n_n_wf : DotDims.WF S512x256 S256x128 S512x128 [1] [0] [0] [1] [] []
  dot_S512x8192_S8192x128_S512x128_1_0_0_1_n_n_wf : DotDims.WF S512x8192 S8192x128 S512x128 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x256_S256x512_S512x512_1_0_0_1_n_n_wf : DotDims.WF S512x256 S256x512 S512x512 [1] [0] [0] [1] [] []
  dot_S512x8192_S8192x512_S512x512_1_0_0_1_n_n_wf : DotDims.WF S512x8192 S8192x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .bf16 = 32 ∨ (Rect.block (s := S8192x8192) S256x8192.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .bf16 = 32 ∨ (Rect.block (s := S8192x256) S256x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .bf16 = 32 ∨ (Rect.block (s := S8192x128) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S8192x256.size a
  hwx2_3 : ∀ i : grid2.Coords, EltTy.bits .bf16 = 32 ∨ (Rect.block (s := S8192x256) S512x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .bf16 = 32 ∨ (Rect.block (s := S8192x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x256.size a ≤ S8192x256.size a
  hwx3_1 : ∀ i : grid3.Coords, EltTy.bits .bf16 = 32 ∨ (Rect.block (s := S8192x256) S8192x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S8192x256.size a
  hwx3_3 : ∀ i : grid3.Coords, EltTy.bits .bf16 = 32 ∨ (Rect.block (s := S8192x256) S512x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x8192.size a ≤ S8192x8192.size a
  hwx4_0 : ∀ i : grid4.Coords, EltTy.bits .bf16 = 32 ∨ (Rect.block (s := S8192x8192) S512x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .bf16 = 32 ∨ (Rect.block (s := S8192x256) S8192x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .bf16 = 32 ∨ (Rect.block (s := S256x512) S256x512.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S8192x512.size a
  hwx4_3 : ∀ i : grid4.Coords, EltTy.bits .bf16 = 32 ∨ (Rect.block (s := S8192x512) S512x512.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x8192.size a ≤ S8192x8192.size a
  hwx5_0 : ∀ i : grid5.Coords, EltTy.bits .bf16 = 32 ∨ (Rect.block (s := S8192x8192) S512x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x512.size a ≤ S8192x512.size a
  hwx5_1 : ∀ i : grid5.Coords, EltTy.bits .bf16 = 32 ∨ (Rect.block (s := S8192x512) S8192x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S8192x512.size a
  hwx5_2 : ∀ i : grid5.Coords, EltTy.bits .f32 = 32 ∨ (Rect.block (s := S8192x512) S512x512.size (cc5_transform_2 i) (hinb5_2 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S256x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9_0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9_0) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9_0) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S8192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S512x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v9_0) S512x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S256x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S512x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v9_0) S512x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S8192x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v14) S512x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S256x128 : Shape := ⟨2, ![256, 128]⟩
abbrev S128x256 : Shape := ⟨2, ![128, 256]⟩
abbrev S256x512 : Shape := ⟨2, ![256, 512]⟩
abbrev S8192x256 : Shape := ⟨2, ![8192, 256]⟩
abbrev S_ : Shape := ⟨0, ![]⟩
abbrev S8192x128 : Shape := ⟨2, ![8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x256, .f32⟩
  | .hbm, ⟨4, _⟩ => ⟨S256x128, .f32⟩
  | .hbm, ⟨5, _⟩ => ⟨S128x256, .f32⟩
  | .hbm, ⟨6, _⟩ => ⟨S256x256, .f32⟩
  | .hbm, ⟨7, _⟩ => ⟨S256x512, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call2_cst : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call3_cst : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call4_cst : Ref sig .tc := ⟨.hbm, 30, rfl⟩
abbrev main_call4_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call5_cst : Ref sig .tc := ⟨.hbm, 35, rfl⟩
abbrev main_call5_v0 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S8192x128 : S_.BroadcastsInDim S8192x128 (![] : Fin 0 → Fin S8192x128.rank)
  bcast_S_S8192x512 : S_.BroadcastsInDim S8192x512 (![] : Fin 0 → Fin S8192x512.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x512_S8192x512_1_0_0_1_n_n_wf : DotDims.WF S8192x256 S256x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Run.lean ====
/-
  The run of the six-layer program with its result named.

  The program is a line of host operations followed by six kernel regions. Its run through the library's theorem for
  programs of several regions ends with every buffer that outlives a region at the contents the last region leaves,
  a fold through the program from the launch memory. Read here off that final state: the result buffer at the fold's
  value for it, and each argument as launched.
-/
import proofs.«121158_j31250182045963_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the last region leaves in it
    and the eight arguments as launched. -/
theorem run_named : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«121158_j31250182045963_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«121158_j31250182045963_2_alg».proof.Proof.LibPlainDot
import proofs.«121158_j31250182045963_2_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.First.lean ====
/-
  Region 0 of the program: the first layer, 256 rows at a time, with the adjacency array copied on the way.

  Point t of the 32-point grid reads rows 256·t … 256·t + 255 of the 8192 × 8192 adjacency array A, the whole
  8192 × 256 array Y and the whole 256 × 256 array W. It writes two blocks of rows 256·t … 256·t + 255: the block of A
  it read, after a change of float format, into a second 8192 × 8192 array; and its rows of (A · Y)⁺ · W into the
  8192 × 256 result. On the extended reals a change of format is the identity, so the second array ends as a copy of
  A, and the result ends as the layer of the arrays the region was entered with.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.First

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first stored value is the loaded block of A. -/
theorem pay_copy (x0 : Vec Ideal S256x8192 .f32) : (k0_pay1 x0 : Mat 256 8192) = (x0 : Mat 256 8192) := rfl

/-- The second stored value is the layer of the three loaded blocks. -/
theorem pay (x0 : Vec Ideal S256x8192 .f32) (x1 : Vec Ideal S8192x256 .bf16) (x2 : Vec Ideal S256x256 .bf16) :
    k0_pay2 x0 x1 x2 = layer (x0 : Mat 256 8192) x1 x2 := by
  unfold k0_pay2 k0_pay1
  simp only [shapeCast_self, truncf_eq]
  exact body_layer _ rfl _ rfl (φ₁ := .bf16) (φ₂ := .bf16) (φ₃ := .bf16) x0 x1 x2

/-- The index maps over the grid: the adjacency window and both result windows are at block row t, block column 0;
    the other two windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The Y window's block is the whole array Y at every point. -/
theorem blk_Y (c : Dev nD) (t : Fin cfg0.N) : (iblk0 V c 1 t : Mat 8192 256) = (V c main_v8 : Mat 8192 256) := by
  obtain ⟨-, -, e2, e3, -⟩ := idx_facts t
  funext y
  show (V c main_v8 : Mat 8192 256) (((cfg0.win 1).blk t).view.emb y) = (V c main_v8 : Mat 8192 256) y
  refine congrArg _ (funext fun a => Fin.ext ?_)
  match a with
  | ⟨0, _⟩ => show win0_1.index t (0 : Fin 2) * 8192 + 1 * (y 0).val = (y 0).val; omega
  | ⟨1, _⟩ => show win0_1.index t (1 : Fin 2) * 256 + 1 * (y 1).val = (y 1).val; omega

/-- The W window's block is the whole array W at every point. -/
theorem blk_W (c : Dev nD) (t : Fin cfg0.N) : (iblk0 V c 2 t : Mat 256 256) = (V c main_v1 : Mat 256 256) := by
  obtain ⟨-, -, -, -, e4, e5, -⟩ := idx_facts t
  funext y
  show (V c main_v1 : Mat 256 256) (((cfg0.win 2).blk t).view.emb y) = (V c main_v1 : Mat 256 256) y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Row p of the adjacency window's block at point t is row 256·t + p of A. -/
theorem blk_A (c : Dev nD) (t : Fin cfg0.N) (p : Fin 256) (p' : Fin 8192) (hp : p'.val = t.val * 256 + p.val) (s : Fin 8192) :
    (iblk0 V c 0 t : Mat 256 8192) (ix2 p s) = (V c main_arg1 : Mat 8192 8192) (ix2 p' s) := by
  obtain ⟨e0, e1, -⟩ := idx_facts t
  show (V c main_arg1 : Mat 8192 8192) (((cfg0.win 0).blk t).view.emb (ix2 p s)) = (V c main_arg1 : Mat 8192 8192) (ix2 p' s)
  refine congrArg _ (funext fun a => Fin.ext ?_)
  match a with
  | ⟨0, _⟩ => show win0_0.index t (0 : Fin 2) * 256 + 1 * p.val = p'.val; omega
  | ⟨1, _⟩ => show win0_0.index t (1 : Fin 2) * 8192 + 1 * s.val = s.val; omega

/-- What point t writes back to the copy is its block of A. -/
theorem flushed_copy (c : Dev nD) (t : Fin cfg0.N) :
    (dat0 V c).flushed 3 t = ((cfg0.win 3).blk t).view.read (Elt Ideal) (V c main_arg1 : Mat 8192 8192) := by
  show (cfg0.win 3).cut (grid0.coords t) ((dat0 V c).after 3 t) = _
  rw [after0_3]
  unfold out0_3
  rw [View.canon_unit_zero hz]
  simp only [View.ld_unit_zero (S := S256x8192) hz]
  have ht : t.val < 32 := Nat.lt_of_lt_of_eq t.isLt N_0
  obtain ⟨-, -, -, -, -, -, e6, e7, -⟩ := idx_facts t
  funext j
  obtain ⟨p, q, rfl⟩ : ∃ (p : Fin 256) (q : Fin 8192), j = ix2 p q := ⟨j 0, j 1, eq_ix2 j⟩
  have hemb : ((cfg0.win 3).blk t).view.emb (ix2 p q) = ix2 (⟨t.val * 256 + p.val, by omega⟩ : Fin 8192) q :=
    funext fun a => Fin.ext (by
      match a with
      | ⟨0, _⟩ => show win0_3.index t (0 : Fin 2) * 256 + 1 * p.val = t.val * 256 + p.val; omega
      | ⟨1, _⟩ => show win0_3.index t (1 : Fin 2) * 8192 + 1 * q.val = q.val; omega)
  show (k0_pay1 (iblk0 V c 0 t) : Mat 256 8192) (ix2 p q) = (V c main_arg1 : Mat 8192 8192) (((cfg0.win 3).blk t).view.emb (ix2 p q))
  rw [hemb, pay_copy]
  exact blk_A V c t p _ rfl q

/-- What point t writes back to the result is its block of the layer of the whole arrays. -/
theorem flushed_eq (c : Dev nD) (t : Fin cfg0.N) :
    (dat0 V c).flushed 4 t = ((cfg0.win 4).blk t).view.read (Elt Ideal)
      (layer (V c main_arg1 : Mat 8192 8192) (V c main_v8 : Mat 8192 256) (V c main_v1 : Mat 256 256) : Mat 8192 256) := by
  show (cfg0.win 4).cut (grid0.coords t) ((dat0 V c).after 4 t) = _
  rw [after0_4]
  unfold out0_4
  rw [View.canon_unit_zero hz]
  simp only [View.ld_unit_zero (S := S256x8192) hz, View.ld_unit_zero (S := S8192x256) hz, View.ld_unit_zero (S := S256x256) hz]
  rw [pay]
  have ht : t.val < 32 := Nat.lt_of_lt_of_eq t.isLt N_0
  obtain ⟨-, -, -, -, -, -, -, -, e8, e9⟩ := idx_facts t
  funext j
  obtain ⟨p, q, rfl⟩ : ∃ (p : Fin 256) (q : Fin 256), j = ix2 p q := ⟨j 0, j 1, eq_ix2 j⟩
  have hemb : ((cfg0.win 4).blk t).view.emb (ix2 p q) = ix2 (⟨t.val * 256 + p.val, by omega⟩ : Fin 8192) q :=
    funext fun a => Fin.ext (by
      match a with
      | ⟨0, _⟩ => show win0_4.index t (0 : Fin 2) * 256 + 1 * p.val = t.val * 256 + p.val; omega
      | ⟨1, _⟩ => show win0_4.index t (1 : Fin 2) * 256 + 1 * q.val = q.val; omega)
  show layer (iblk0 V c 0 t : Mat 256 8192) (iblk0 V c 1 t : Mat 8192 256) (iblk0 V c 2 t : Mat 256 256) (ix2 p q)
    = layer (V c main_arg1 : Mat 8192 8192) (V c main_v8 : Mat 8192 256) (V c main_v1 : Mat 256 256) (((cfg0.win 4).blk t).view.emb (ix2 p q))
  rw [hemb, blk_Y V c t, blk_W V c t]
  exact layer_rows _ _ _ _ p _ q (fun s => blk_A V c t p _ rfl s)

/-- An index of the copy is in point t's block iff each coordinate is in the block's range. -/
theorem mem_blk_copy (t : Fin cfg0.N) (i : S8192x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v9_0).slice (win0_3.rect t)).set ↔ _
  rw [View.set_slice_whole, Rect.mem_set_unit]
  exact Iff.rfl

/-- An index of the result is in point t's block iff each coordinate is in the block's range. -/
theorem mem_blk (t : Fin cfg0.N) (i : S8192x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v9_1).slice (win0_4.rect t)).set ↔ _
  rw [View.set_slice_whole, Rect.mem_set_unit]
  exact Iff.rfl

/-- The second adjacency array after the region: A as the region found it. -/
theorem arr_copy (c : Dev nD) : (dat0 V c).arrAt 3 cfg0.N = (V c main_arg1 : Mat 8192 8192) :=
  (dat0 V c).arrAt_eq_of_cover 3 _ (fun t _ => flushed_copy V c t) fun i => by
    have hi0 : (i 0).val < 8192 := (i 0).isLt
    have hi1 : (i 1).val < 8192 := (i 1).isLt
    have hN : cfg0.N = 32 := N_0
    obtain ⟨-, -, -, -, -, -, e6, e7, -⟩ := idx_facts ⟨(i 0).val / 256, by rw [hN]; omega⟩
    refine ⟨⟨(i 0).val / 256, by rw [hN]; omega⟩, flush0_3 _, ?_⟩
    rw [mem_blk_copy]
    intro a
    match a with
    | ⟨0, _⟩ =>
      show win0_3.index ⟨(i 0).val / 256, _⟩ (0 : Fin 2) * 256 ≤ (i 0).val ∧ (i 0).val < win0_3.index ⟨(i 0).val / 256, _⟩ (0 : Fin 2) * 256 + 256
      rw [e6]; show (i 0).val / 256 * 256 ≤ (i 0).val ∧ (i 0).val < (i 0).val / 256 * 256 + 256; omega
    | ⟨1, _⟩ =>
      show win0_3.index ⟨(i 0).val / 256, _⟩ (1 : Fin 2) * 8192 ≤ (i 1).val ∧ (i 1).val < win0_3.index ⟨(i 0).val / 256, _⟩ (1 : Fin 2) * 8192 + 8192
      rw [e7]; omega

/-- The result array after the region: the layer of the arrays the region was entered with. -/
theorem arr (c : Dev nD) : (dat0 V c).arrAt 4 cfg0.N
    = (layer (V c main_arg1 : Mat 8192 8192) (V c main_v8 : Mat 8192 256) (V c main_v1 : Mat 256 256) : Mat 8192 256) :=
  (dat0 V c).arrAt_eq_of_cover 4 _ (fun t _ => flushed_eq V c t) fun i => by
    have hi0 : (i 0).val < 8192 := (i 0).isLt
    have hi1 : (i 1).val < 256 := (i 1).isLt
    have hN : cfg0.N = 32 := N_0
    obtain ⟨-, -, -, -, -, -, -, -, e8, e9⟩ := idx_facts ⟨(i 0).val / 256, by rw [hN]; omega⟩
    refine ⟨⟨(i 0).val / 256, by rw [hN]; omega⟩, flush0_4 _, ?_⟩
    rw [mem_blk]
    intro a
    match a with
    | ⟨0, _⟩ =>
      show win0_4.index ⟨(i 0).val / 256, _⟩ (0 : Fin 2) * 256 ≤ (i 0).val ∧ (i 0).val < win0_4.index ⟨(i 0).val / 256, _⟩ (0 : Fin 2) * 256 + 256
      rw [e8]; show (i 0).val / 256 * 256 ≤ (i 0).val ∧ (i 0).val < (i 0).val / 256 * 256 + 256; omega
    | ⟨1, _⟩ =>
      show win0_4.index ⟨(i 0).val / 256, _⟩ (1 : Fin 2) * 256 ≤ (i 1).val ∧ (i 1).val < win0_4.index ⟨(i 0).val / 256, _⟩ (1 : Fin 2) * 256 + 256
      rw [e9]; omega

end Cert.KernelIdeal.First

end
-- ==== Proof.Mid1.lean ====
/-
  Region 1 of the program: one middle layer, (A · Y)⁺ · W, computed 512 rows at a time.

  Point t of the 16-point grid reads rows 512·t … 512·t + 511 of the 8192 × 8192 adjacency array A, the whole
  8192 × 256 array Y and the whole 256 × 128 array W, and writes rows 512·t … 512·t + 511 of the 8192 × 128 result.
  Entry (p, j) of (A · Y)⁺ · W reads row p of A only, so what point t writes back is its block of rows of the layer of
  the whole arrays; the sixteen blocks tile the result, which therefore ends holding the layer of the arrays the region
  was entered with.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.Mid1

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer of its three loaded blocks. -/
theorem pay (x0 : Vec Ideal S512x8192 .bf16) (x1 : Vec Ideal S8192x256 .bf16) (x2 : Vec Ideal S256x128 .bf16) :
    k1_pay1 x0 x1 x2 = layer x0 x1 x2 := by
  unfold k1_pay1
  simp only [shapeCast_self, truncf_eq]
  exact body_layer _ rfl _ rfl (φ₁ := .bf16) (φ₂ := .bf16) (φ₃ := .bf16) x0 x1 x2

/-- The index maps over the grid: the adjacency window and the result window are at block row t, block column 0; the
    other two windows stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The Y window's block is the whole array Y at every point. -/
theorem blk_Y (c : Dev nD) (t : Fin cfg1.N) : (iblk1 V c 1 t : Mat 8192 256) = (V c main_v9_1 : Mat 8192 256) := by
  obtain ⟨-, -, e2, e3, -⟩ := idx_facts t
  funext y
  show (V c main_v9_1 : Mat 8192 256) (((cfg1.win 1).blk t).view.emb y) = (V c main_v9_1 : Mat 8192 256) y
  refine congrArg _ (funext fun a => Fin.ext ?_)
  match a with
  | ⟨0, _⟩ => show win1_1.index t (0 : Fin 2) * 8192 + 1 * (y 0).val = (y 0).val; omega
  | ⟨1, _⟩ => show win1_1.index t (1 : Fin 2) * 256 + 1 * (y 1).val = (y 1).val; omega

/-- The W window's block is the whole array W at every point. -/
theorem blk_W (c : Dev nD) (t : Fin cfg1.N) : (iblk1 V c 2 t : Mat 256 128) = (V c main_v2 : Mat 256 128) := by
  obtain ⟨-, -, -, -, e4, e5, -⟩ := idx_facts t
  funext y
  show (V c main_v2 : Mat 256 128) (((cfg1.win 2).blk t).view.emb y) = (V c main_v2 : Mat 256 128) y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- Row p of the adjacency window's block at point t is row 512·t + p of A. -/
theorem blk_A (c : Dev nD) (t : Fin cfg1.N) (p : Fin 512) (p' : Fin 8192) (hp : p'.val = t.val * 512 + p.val) (s : Fin 8192) :
    (iblk1 V c 0 t : Mat 512 8192) (ix2 p s) = (V c main_v9_0 : Mat 8192 8192) (ix2 p' s) := by
  obtain ⟨e0, e1, -⟩ := idx_facts t
  show (V c main_v9_0 : Mat 8192 8192) (((cfg1.win 0).blk t).view.emb (ix2 p s)) = (V c main_v9_0 : Mat 8192 8192) (ix2 p' s)
  refine congrArg _ (funext fun a => Fin.ext ?_)
  match a with
  | ⟨0, _⟩ => show win1_0.index t (0 : Fin 2) * 512 + 1 * p.val = p'.val; omega
  | ⟨1, _⟩ => show win1_0.index t (1 : Fin 2) * 8192 + 1 * s.val = s.val; omega

/-- What point t writes back is its block of the layer of the whole arrays. -/
theorem flushed_eq (c : Dev nD) (t : Fin cfg1.N) :
    (dat1 V c).flushed 3 t = ((cfg1.win 3).blk t).view.read (Elt Ideal)
      (layer (V c main_v9_0 : Mat 8192 8192) (V c main_v9_1 : Mat 8192 256) (V c main_v2 : Mat 256 128) : Mat 8192 128) := by
  show (cfg1.win 3).cut (grid1.coords t) ((dat1 V c).after 3 t) = _
  rw [after1_3]
  unfold out1_3
  rw [View.canon_unit_zero hz]
  simp only [View.ld_unit_zero (S := S512x8192) hz, View.ld_unit_zero (S := S8192x256) hz, View.ld_unit_zero (S := S256x128) hz]
  rw [pay]
  have ht : t.val < 16 := Nat.lt_of_lt_of_eq t.isLt N_1
  obtain ⟨-, -, -, -, -, -, e6, e7⟩ := idx_facts t
  funext j
  obtain ⟨p, q, rfl⟩ : ∃ (p : Fin 512) (q : Fin 128), j = ix2 p q := ⟨j 0, j 1, eq_ix2 j⟩
  have hemb : ((cfg1.win 3).blk t).view.emb (ix2 p q) = ix2 (⟨t.val * 512 + p.val, by omega⟩ : Fin 8192) q :=
    funext fun a => Fin.ext (by
      match a with
      | ⟨0, _⟩ => show win1_3.index t (0 : Fin 2) * 512 + 1 * p.val = t.val * 512 + p.val; omega
      | ⟨1, _⟩ => show win1_3.index t (1 : Fin 2) * 128 + 1 * q.val = q.val; omega)
  show layer (iblk1 V c 0 t : Mat 512 8192) (iblk1 V c 1 t : Mat 8192 256) (iblk1 V c 2 t : Mat 256 128) (ix2 p q)
    = layer (V c main_v9_0 : Mat 8192 8192) (V c main_v9_1 : Mat 8192 256) (V c main_v2 : Mat 256 128) (((cfg1.win 3).blk t).view.emb (ix2 p q))
  rw [hemb, blk_Y V c t, blk_W V c t]
  exact layer_rows _ _ _ _ p _ q (fun s => blk_A V c t p _ rfl s)

/-- An index of the result is in point t's block iff each coordinate is in the block's range. -/
theorem mem_blk (t : Fin cfg1.N) (i : S8192x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v10).slice (win1_3.rect t)).set ↔ _
  rw [View.set_slice_whole, Rect.mem_set_unit]
  exact Iff.rfl

/-- The result array after the region: the layer of the arrays the region was entered with. -/
theorem arr (c : Dev nD) : (dat1 V c).arrAt 3 cfg1.N
    = (layer (V c main_v9_0 : Mat 8192 8192) (V c main_v9_1 : Mat 8192 256) (V c main_v2 : Mat 256 128) : Mat 8192 128) :=
  (dat1 V c).arrAt_eq_of_cover 3 _ (fun t _ => flushed_eq V c t) fun i => by
    have hi0 : (i 0).val < 8192 := (i 0).isLt
    have hi1 : (i 1).val < 128 := (i 1).isLt
    have hN : cfg1.N = 16 := N_1
    obtain ⟨-, -, -, -, -, -, e6, e7⟩ := idx_facts ⟨(i 0).val / 512, by rw [hN]; omega⟩
    refine ⟨⟨(i 0).val / 512, by rw [hN]; omega⟩, flush1_3 _, ?_⟩
    rw [mem_blk]
    intro a
    match a with
    | ⟨0, _⟩ =>
      show win1_3.index ⟨(i 0).val / 512, _⟩ (0 : Fin 2) * 512 ≤ (i 0).val ∧ (i 0).val < win1_3.index ⟨(i 0).val / 512, _⟩ (0 : Fin 2) * 512 + 512
      rw [e6]; show (i 0).val / 512 * 512 ≤ (i 0).val ∧ (i 0).val < (i 0).val / 512 * 512 + 512; omega
    | ⟨1, _⟩ =>
      show win1_3.index ⟨(i 0).val / 512, _⟩ (1 : Fin 2) * 128 ≤ (i 1).val ∧ (i 1).val < win1_3.index ⟨(i 0).val / 512, _⟩ (1 : Fin 2) * 128 + 128
      rw [e7]; omega

end Cert.KernelIdeal.Mid1

end
-- ==== Proof.Mid2.lean ====
/-
  Region 2 of the program: one middle layer, (A · Y)⁺ · W, computed 512 rows at a time.

  Point t of the 16-point grid reads rows 512·t … 512·t + 511 of the 8192 × 8192 adjacency array A, the whole
  8192 × 128 array Y and the whole 128 × 256 array W, and writes rows 512·t … 512·t + 511 of the 8192 × 256 result.
  Entry (p, j) of (A · Y)⁺ · W reads row p of A only, so what point t writes back is its block of rows of the layer of
  the whole arrays; the sixteen blocks tile the result, which therefore ends holding the layer of the arrays the region
  was entered with.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.Mid2

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer of its three loaded blocks. -/
theorem pay (x0 : Vec Ideal S512x8192 .bf16) (x1 : Vec Ideal S8192x128 .bf16) (x2 : Vec Ideal S128x256 .bf16) :
    k2_pay1 x0 x1 x2 = layer x0 x1 x2 := by
  unfold k2_pay1
  simp only [shapeCast_self, truncf_eq]
  exact body_layer _ rfl _ rfl (φ₁ := .bf16) (φ₂ := .bf16) (φ₃ := .bf16) x0 x1 x2

/-- The index maps over the grid: the adjacency window and the result window are at block row t, block column 0; the
    other two windows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The Y window's block is the whole array Y at every point. -/
theorem blk_Y (c : Dev nD) (t : Fin cfg2.N) : (iblk2 V c 1 t : Mat 8192 128) = (V c main_v10 : Mat 8192 128) := by
  obtain ⟨-, -, e2, e3, -⟩ := idx_facts t
  funext y
  show (V c main_v10 : Mat 8192 128) (((cfg2.win 1).blk t).view.emb y) = (V c main_v10 : Mat 8192 128) y
  refine congrArg _ (funext fun a => Fin.ext ?_)
  match a with
  | ⟨0, _⟩ => show win2_1.index t (0 : Fin 2) * 8192 + 1 * (y 0).val = (y 0).val; omega
  | ⟨1, _⟩ => show win2_1.index t (1 : Fin 2) * 128 + 1 * (y 1).val = (y 1).val; omega

/-- The W window's block is the whole array W at every point. -/
theorem blk_W (c : Dev nD) (t : Fin cfg2.N) : (iblk2 V c 2 t : Mat 128 256) = (V c main_v3 : Mat 128 256) := by
  obtain ⟨-, -, -, -, e4, e5, -⟩ := idx_facts t
  funext y
  show (V c main_v3 : Mat 128 256) (((cfg2.win 2).blk t).view.emb y) = (V c main_v3 : Mat 128 256) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 256 + 1 * (y 1).val = (y 1).val; omega

/-- Row p of the adjacency window's block at point t is row 512·t + p of A. -/
theorem blk_A (c : Dev nD) (t : Fin cfg2.N) (p : Fin 512) (p' : Fin 8192) (hp : p'.val = t.val * 512 + p.val) (s : Fin 8192) :
    (iblk2 V c 0 t : Mat 512 8192) (ix2 p s) = (V c main_v9_0 : Mat 8192 8192) (ix2 p' s) := by
  obtain ⟨e0, e1, -⟩ := idx_facts t
  show (V c main_v9_0 : Mat 8192 8192) (((cfg2.win 0).blk t).view.emb (ix2 p s)) = (V c main_v9_0 : Mat 8192 8192) (ix2 p' s)
  refine congrArg _ (funext fun a => Fin.ext ?_)
  match a with
  | ⟨0, _⟩ => show win2_0.index t (0 : Fin 2) * 512 + 1 * p.val = p'.val; omega
  | ⟨1, _⟩ => show win2_0.index t (1 : Fin 2) * 8192 + 1 * s.val = s.val; omega

/-- What point t writes back is its block of the layer of the whole arrays. -/
theorem flushed_eq (c : Dev nD) (t : Fin cfg2.N) :
    (dat2 V c).flushed 3 t = ((cfg2.win 3).blk t).view.read (Elt Ideal)
      (layer (V c main_v9_0 : Mat 8192 8192) (V c main_v10 : Mat 8192 128) (V c main_v3 : Mat 128 256) : Mat 8192 256) := by
  show (cfg2.win 3).cut (grid2.coords t) ((dat2 V c).after 3 t) = _
  rw [after2_3]
  unfold out2_3
  rw [View.canon_unit_zero hz]
  simp only [View.ld_unit_zero (S := S512x8192) hz, View.ld_unit_zero (S := S8192x128) hz, View.ld_unit_zero (S := S128x256) hz]
  rw [pay]
  have ht : t.val < 16 := Nat.lt_of_lt_of_eq t.isLt N_2
  obtain ⟨-, -, -, -, -, -, e6, e7⟩ := idx_facts t
  funext j
  obtain ⟨p, q, rfl⟩ : ∃ (p : Fin 512) (q : Fin 256), j = ix2 p q := ⟨j 0, j 1, eq_ix2 j⟩
  have hemb : ((cfg2.win 3).blk t).view.emb (ix2 p q) = ix2 (⟨t.val * 512 + p.val, by omega⟩ : Fin 8192) q :=
    funext fun a => Fin.ext (by
      match a with
      | ⟨0, _⟩ => show win2_3.index t (0 : Fin 2) * 512 + 1 * p.val = t.val * 512 + p.val; omega
      | ⟨1, _⟩ => show win2_3.index t (1 : Fin 2) * 256 + 1 * q.val = q.val; omega)
  show layer (iblk2 V c 0 t : Mat 512 8192) (iblk2 V c 1 t : Mat 8192 128) (iblk2 V c 2 t : Mat 128 256) (ix2 p q)
    = layer (V c main_v9_0 : Mat 8192 8192) (V c main_v10 : Mat 8192 128) (V c main_v3 : Mat 128 256) (((cfg2.win 3).blk t).view.emb (ix2 p q))
  rw [hemb, blk_Y V c t, blk_W V c t]
  exact layer_rows _ _ _ _ p _ q (fun s => blk_A V c t p _ rfl s)

/-- An index of the result is in point t's block iff each coordinate is in the block's range. -/
theorem mem_blk (t : Fin cfg2.N) (i : S8192x256.Idx) :
    i ∈ ((cfg2.win 3).blk t).view.set ↔ ∀ a : Fin 2, win2_3.index t a * S512x256.size a ≤ (i a).val ∧ (i a).val < win2_3.index t a * S512x256.size a + S512x256.size a := by
  show i ∈ ((View.whole main_v11).slice (win2_3.rect t)).set ↔ _
  rw [View.set_slice_whole, Rect.mem_set_unit]
  exact Iff.rfl

/-- The result array after the region: the layer of the arrays the region was entered with. -/
theorem arr (c : Dev nD) : (dat2 V c).arrAt 3 cfg2.N
    = (layer (V c main_v9_0 : Mat 8192 8192) (V c main_v10 : Mat 8192 128) (V c main_v3 : Mat 128 256) : Mat 8192 256) :=
  (dat2 V c).arrAt_eq_of_cover 3 _ (fun t _ => flushed_eq V c t) fun i => by
    have hi0 : (i 0).val < 8192 := (i 0).isLt
    have hi1 : (i 1).val < 256 := (i 1).isLt
    have hN : cfg2.N = 16 := N_2
    obtain ⟨-, -, -, -, -, -, e6, e7⟩ := idx_facts ⟨(i 0).val / 512, by rw [hN]; omega⟩
    refine ⟨⟨(i 0).val / 512, by rw [hN]; omega⟩, flush2_3 _, ?_⟩
    rw [mem_blk]
    intro a
    match a with
    | ⟨0, _⟩ =>
      show win2_3.index ⟨(i 0).val / 512, _⟩ (0 : Fin 2) * 512 ≤ (i 0).val ∧ (i 0).val < win2_3.index ⟨(i 0).val / 512, _⟩ (0 : Fin 2) * 512 + 512
      rw [e6]; show (i 0).val / 512 * 512 ≤ (i 0).val ∧ (i 0).val < (i 0).val / 512 * 512 + 512; omega
    | ⟨1, _⟩ =>
      show win2_3.index ⟨(i 0).val / 512, _⟩ (1 : Fin 2) * 256 ≤ (i 1).val ∧ (i 1).val < win2_3.index ⟨(i 0).val / 512, _⟩ (1 : Fin 2) * 256 + 256
      rw [e7]; omega

end Cert.KernelIdeal.Mid2

end
-- ==== Proof.Mid3.lean ====
/-
  Region 3 of the program: one middle layer, (A · Y)⁺ · W, computed 512 rows at a time.

  Point t of the 16-point grid reads rows 512·t … 512·t + 511 of the 8192 × 8192 adjacency array A, the whole
  8192 × 256 array Y and the whole 256 × 256 array W, and writes rows 512·t … 512·t + 511 of the 8192 × 256 result.
  Entry (p, j) of (A · Y)⁺ · W reads row p of A only, so what point t writes back is its block of rows of the layer of
  the whole arrays; the sixteen blocks tile the result, which therefore ends holding the layer of the arrays the region
  was entered with.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.Mid3

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer of its three loaded blocks. -/
theorem pay (x0 : Vec Ideal S512x8192 .bf16) (x1 : Vec Ideal S8192x256 .bf16) (x2 : Vec Ideal S256x256 .bf16) :
    k3_pay1 x0 x1 x2 = layer x0 x1 x2 := by
  unfold k3_pay1
  simp only [shapeCast_self, truncf_eq]
  exact body_layer _ rfl _ rfl (φ₁ := .bf16) (φ₂ := .bf16) (φ₃ := .bf16) x0 x1 x2

/-- The index maps over the grid: the adjacency window and the result window are at block row t, block column 0; the
    other two windows stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The Y window's block is the whole array Y at every point. -/
theorem blk_Y (c : Dev nD) (t : Fin cfg3.N) : (iblk3 V c 1 t : Mat 8192 256) = (V c main_v11 : Mat 8192 256) := by
  obtain ⟨-, -, e2, e3, -⟩ := idx_facts t
  funext y
  show (V c main_v11 : Mat 8192 256) (((cfg3.win 1).blk t).view.emb y) = (V c main_v11 : Mat 8192 256) y
  refine congrArg _ (funext fun a => Fin.ext ?_)
  match a with
  | ⟨0, _⟩ => show win3_1.index t (0 : Fin 2) * 8192 + 1 * (y 0).val = (y 0).val; omega
  | ⟨1, _⟩ => show win3_1.index t (1 : Fin 2) * 256 + 1 * (y 1).val = (y 1).val; omega

/-- The W window's block is the whole array W at every point. -/
theorem blk_W (c : Dev nD) (t : Fin cfg3.N) : (iblk3 V c 2 t : Mat 256 256) = (V c main_v4 : Mat 256 256) := by
  obtain ⟨-, -, -, -, e4, e5, -⟩ := idx_facts t
  funext y
  show (V c main_v4 : Mat 256 256) (((cfg3.win 2).blk t).view.emb y) = (V c main_v4 : Mat 256 256) y
  refine congrArg _ (funext fun a => Fin.ext ?_)
  match a with
  | ⟨0, _⟩ => show win3_2.index t (0 : Fin 2) * 256 + 1 * (y 0).val = (y 0).val; omega
  | ⟨1, _⟩ => show win3_2.index t (1 : Fin 2) * 256 + 1 * (y 1).val = (y 1).val; omega

/-- Row p of the adjacency window's block at point t is row 512·t + p of A. -/
theorem blk_A (c : Dev nD) (t : Fin cfg3.N) (p : Fin 512) (p' : Fin 8192) (hp : p'.val = t.val * 512 + p.val) (s : Fin 8192) :
    (iblk3 V c 0 t : Mat 512 8192) (ix2 p s) = (V c main_v9_0 : Mat 8192 8192) (ix2 p' s) := by
  obtain ⟨e0, e1, -⟩ := idx_facts t
  show (V c main_v9_0 : Mat 8192 8192) (((cfg3.win 0).blk t).view.emb (ix2 p s)) = (V c main_v9_0 : Mat 8192 8192) (ix2 p' s)
  refine congrArg _ (funext fun a => Fin.ext ?_)
  match a with
  | ⟨0, _⟩ => show win3_0.index t (0 : Fin 2) * 512 + 1 * p.val = p'.val; omega
  | ⟨1, _⟩ => show win3_0.index t (1 : Fin 2) * 8192 + 1 * s.val = s.val; omega

/-- What point t writes back is its block of the layer of the whole arrays. -/
theorem flushed_eq (c : Dev nD) (t : Fin cfg3.N) :
    (dat3 V c).flushed 3 t = ((cfg3.win 3).blk t).view.read (Elt Ideal)
      (layer (V c main_v9_0 : Mat 8192 8192) (V c main_v11 : Mat 8192 256) (V c main_v4 : Mat 256 256) : Mat 8192 256) := by
  show (cfg3.win 3).cut (grid3.coords t) ((dat3 V c).after 3 t) = _
  rw [after3_3]
  unfold out3_3
  rw [View.canon_unit_zero hz]
  simp only [View.ld_unit_zero (S := S512x8192) hz, View.ld_unit_zero (S := S8192x256) hz, View.ld_unit_zero (S := S256x256) hz]
  rw [pay]
  have ht : t.val < 16 := Nat.lt_of_lt_of_eq t.isLt N_3
  obtain ⟨-, -, -, -, -, -, e6, e7⟩ := idx_facts t
  funext j
  obtain ⟨p, q, rfl⟩ : ∃ (p : Fin 512) (q : Fin 256), j = ix2 p q := ⟨j 0, j 1, eq_ix2 j⟩
  have hemb : ((cfg3.win 3).blk t).view.emb (ix2 p q) = ix2 (⟨t.val * 512 + p.val, by omega⟩ : Fin 8192) q :=
    funext fun a => Fin.ext (by
      match a with
      | ⟨0, _⟩ => show win3_3.index t (0 : Fin 2) * 512 + 1 * p.val = t.val * 512 + p.val; omega
      | ⟨1, _⟩ => show win3_3.index t (1 : Fin 2) * 256 + 1 * q.val = q.val; omega)
  show layer (iblk3 V c 0 t : Mat 512 8192) (iblk3 V c 1 t : Mat 8192 256) (iblk3 V c 2 t : Mat 256 256) (ix2 p q)
    = layer (V c main_v9_0 : Mat 8192 8192) (V c main_v11 : Mat 8192 256) (V c main_v4 : Mat 256 256) (((cfg3.win 3).blk t).view.emb (ix2 p q))
  rw [hemb, blk_Y V c t, blk_W V c t]
  exact layer_rows _ _ _ _ p _ q (fun s => blk_A V c t p _ rfl s)

/-- An index of the result is in point t's block iff each coordinate is in the block's range. -/
theorem mem_blk (t : Fin cfg3.N) (i : S8192x256.Idx) :
    i ∈ ((cfg3.win 3).blk t).view.set ↔ ∀ a : Fin 2, win3_3.index t a * S512x256.size a ≤ (i a).val ∧ (i a).val < win3_3.index t a * S512x256.size a + S512x256.size a := by
  show i ∈ ((View.whole main_v12).slice (win3_3.rect t)).set ↔ _
  rw [View.set_slice_whole, Rect.mem_set_unit]
  exact Iff.rfl

/-- The result array after the region: the layer of the arrays the region was entered with. -/
theorem arr (c : Dev nD) : (dat3 V c).arrAt 3 cfg3.N
    = (layer (V c main_v9_0 : Mat 8192 8192) (V c main_v11 : Mat 8192 256) (V c main_v4 : Mat 256 256) : Mat 8192 256) :=
  (dat3 V c).arrAt_eq_of_cover 3 _ (fun t _ => flushed_eq V c t) fun i => by
    have hi0 : (i 0).val < 8192 := (i 0).isLt
    have hi1 : (i 1).val < 256 := (i 1).isLt
    have hN : cfg3.N = 16 := N_3
    obtain ⟨-, -, -, -, -, -, e6, e7⟩ := idx_facts ⟨(i 0).val / 512, by rw [hN]; omega⟩
    refine ⟨⟨(i 0).val / 512, by rw [hN]; omega⟩, flush3_3 _, ?_⟩
    rw [mem_blk]
    intro a
    match a with
    | ⟨0, _⟩ =>
      show win3_3.index ⟨(i 0).val / 512, _⟩ (0 : Fin 2) * 512 ≤ (i 0).val ∧ (i 0).val < win3_3.index ⟨(i 0).val / 512, _⟩ (0 : Fin 2) * 512 + 512
      rw [e6]; show (i 0).val / 512 * 512 ≤ (i 0).val ∧ (i 0).val < (i 0).val / 512 * 512 + 512; omega
    | ⟨1, _⟩ =>
      show win3_3.index ⟨(i 0).val / 512, _⟩ (1 : Fin 2) * 256 ≤ (i 1).val ∧ (i 1).val < win3_3.index ⟨(i 0).val / 512, _⟩ (1 : Fin 2) * 256 + 256
      rw [e7]; omega

end Cert.KernelIdeal.Mid3

end
-- ==== Proof.Mid4.lean ====
/-
  Region 4 of the program: one middle layer, (A · Y)⁺ · W, computed 512 rows at a time.

  Point t of the 16-point grid reads rows 512·t … 512·t + 511 of the 8192 × 8192 adjacency array A, the whole
  8192 × 256 array Y and the whole 256 × 512 array W, and writes rows 512·t … 512·t + 511 of the 8192 × 512 result.
  Entry (p, j) of (A · Y)⁺ · W reads row p of A only, so what point t writes back is its block of rows of the layer of
  the whole arrays; the sixteen blocks tile the result, which therefore ends holding the layer of the arrays the region
  was entered with.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.Mid4

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the layer of its three loaded blocks. -/
theorem pay (x0 : Vec Ideal S512x8192 .bf16) (x1 : Vec Ideal S8192x256 .bf16) (x2 : Vec Ideal S256x512 .bf16) :
    k4_pay1 x0 x1 x2 = layer x0 x1 x2 := by
  unfold k4_pay1
  simp only [shapeCast_self, truncf_eq]
  exact body_layer _ rfl _ rfl (φ₁ := .bf16) (φ₂ := .bf16) (φ₃ := .bf16) x0 x1 x2

/-- The index maps over the grid: the adjacency window and the result window are at block row t, block column 0; the
    other two windows stay at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The Y window's block is the whole array Y at every point. -/
theorem blk_Y (c : Dev nD) (t : Fin cfg4.N) : (iblk4 V c 1 t : Mat 8192 256) = (V c main_v12 : Mat 8192 256) := by
  obtain ⟨-, -, e2, e3, -⟩ := idx_facts t
  funext y
  show (V c main_v12 : Mat 8192 256) (((cfg4.win 1).blk t).view.emb y) = (V c main_v12 : Mat 8192 256) y
  refine congrArg _ (funext fun a => Fin.ext ?_)
  match a with
  | ⟨0, _⟩ => show win4_1.index t (0 : Fin 2) * 8192 + 1 * (y 0).val = (y 0).val; omega
  | ⟨1, _⟩ => show win4_1.index t (1 : Fin 2) * 256 + 1 * (y 1).val = (y 1).val; omega

/-- The W window's block is the whole array W at every point. -/
theorem blk_W (c : Dev nD) (t : Fin cfg4.N) : (iblk4 V c 2 t : Mat 256 512) = (V c main_v5 : Mat 256 512) := by
  obtain ⟨-, -, -, -, e4, e5, -⟩ := idx_facts t
  funext y
  show (V c main_v5 : Mat 256 512) (((cfg4.win 2).blk t).view.emb y) = (V c main_v5 : Mat 256 512) y
  refine congrArg _ (funext fun a => Fin.ext ?_)
  match a with
  | ⟨0, _⟩ => show win4_2.index t (0 : Fin 2) * 256 + 1 * (y 0).val = (y 0).val; omega
  | ⟨1, _⟩ => show win4_2.index t (1 : Fin 2) * 512 + 1 * (y 1).val = (y 1).val; omega

/-- Row p of the adjacency window's block at point t is row 512·t + p of A. -/
theorem blk_A (c : Dev nD) (t : Fin cfg4.N) (p : Fin 512) (p' : Fin 8192) (hp : p'.val = t.val * 512 + p.val) (s : Fin 8192) :
    (iblk4 V c 0 t : Mat 512 8192) (ix2 p s) = (V c main_v9_0 : Mat 8192 8192) (ix2 p' s) := by
  obtain ⟨e0, e1, -⟩ := idx_facts t
  show (V c main_v9_0 : Mat 8192 8192) (((cfg4.win 0).blk t).view.emb (ix2 p s)) = (V c main_v9_0 : Mat 8192 8192) (ix2 p' s)
  refine congrArg _ (funext fun a => Fin.ext ?_)
  match a with
  | ⟨0, _⟩ => show win4_0.index t (0 : Fin 2) * 512 + 1 * p.val = p'.val; omega
  | ⟨1, _⟩ => show win4_0.index t (1 : Fin 2) * 8192 + 1 * s.val = s.val; omega

/-- What point t writes back is its block of the layer of the whole arrays. -/
theorem flushed_eq (c : Dev nD) (t : Fin cfg4.N) :
    (dat4 V c).flushed 3 t = ((cfg4.win 3).blk t).view.read (Elt Ideal)
      (layer (V c main_v9_0 : Mat 8192 8192) (V c main_v12 : Mat 8192 256) (V c main_v5 : Mat 256 512) : Mat 8192 512) := by
  show (cfg4.win 3).cut (grid4.coords t) ((dat4 V c).after 3 t) = _
  rw [after4_3]
  unfold out4_3
  rw [View.canon_unit_zero hz]
  simp only [View.ld_unit_zero (S := S512x8192) hz, View.ld_unit_zero (S := S8192x256) hz, View.ld_unit_zero (S := S256x512) hz]
  rw [pay]
  have ht : t.val < 16 := Nat.lt_of_lt_of_eq t.isLt N_4
  obtain ⟨-, -, -, -, -, -, e6, e7⟩ := idx_facts t
  funext j
  obtain ⟨p, q, rfl⟩ : ∃ (p : Fin 512) (q : Fin 512), j = ix2 p q := ⟨j 0, j 1, eq_ix2 j⟩
  have hemb : ((cfg4.win 3).blk t).view.emb (ix2 p q) = ix2 (⟨t.val * 512 + p.val, by omega⟩ : Fin 8192) q :=
    funext fun a => Fin.ext (by
      match a with
      | ⟨0, _⟩ => show win4_3.index t (0 : Fin 2) * 512 + 1 * p.val = t.val * 512 + p.val; omega
      | ⟨1, _⟩ => show win4_3.index t (1 : Fin 2) * 512 + 1 * q.val = q.val; omega)
  show layer (iblk4 V c 0 t : Mat 512 8192) (iblk4 V c 1 t : Mat 8192 256) (iblk4 V c 2 t : Mat 256 512) (ix2 p q)
    = layer (V c main_v9_0 : Mat 8192 8192) (V c main_v12 : Mat 8192 256) (V c main_v5 : Mat 256 512) (((cfg4.win 3).blk t).view.emb (ix2 p q))
  rw [hemb, blk_Y V c t, blk_W V c t]
  exact layer_rows _ _ _ _ p _ q (fun s => blk_A V c t p _ rfl s)

/-- An index of the result is in point t's block iff each coordinate is in the block's range. -/
theorem mem_blk (t : Fin cfg4.N) (i : S8192x512.Idx) :
    i ∈ ((cfg4.win 3).blk t).view.set ↔ ∀ a : Fin 2, win4_3.index t a * S512x512.size a ≤ (i a).val ∧ (i a).val < win4_3.index t a * S512x512.size a + S512x512.size a := by
  show i ∈ ((View.whole main_v13).slice (win4_3.rect t)).set ↔ _
  rw [View.set_slice_whole, Rect.mem_set_unit]
  exact Iff.rfl

/-- The result array after the region: the layer of the arrays the region was entered with. -/
theorem arr (c : Dev nD) : (dat4 V c).arrAt 3 cfg4.N
    = (layer (V c main_v9_0 : Mat 8192 8192) (V c main_v12 : Mat 8192 256) (V c main_v5 : Mat 256 512) : Mat 8192 512) :=
  (dat4 V c).arrAt_eq_of_cover 3 _ (fun t _ => flushed_eq V c t) fun i => by
    have hi0 : (i 0).val < 8192 := (i 0).isLt
    have hi1 : (i 1).val < 512 := (i 1).isLt
    have hN : cfg4.N = 16 := N_4
    obtain ⟨-, -, -, -, -, -, e6, e7⟩ := idx_facts ⟨(i 0).val / 512, by rw [hN]; omega⟩
    refine ⟨⟨(i 0).val / 512, by rw [hN]; omega⟩, flush4_3 _, ?_⟩
    rw [mem_blk]
    intro a
    match a with
    | ⟨0, _⟩ =>
      show win4_3.index ⟨(i 0).val / 512, _⟩ (0 : Fin 2) * 512 ≤ (i 0).val ∧ (i 0).val < win4_3.index ⟨(i 0).val / 512, _⟩ (0 : Fin 2) * 512 + 512
      rw [e6]; show (i 0).val / 512 * 512 ≤ (i 0).val ∧ (i 0).val < (i 0).val / 512 * 512 + 512; omega
    | ⟨1, _⟩ =>
      show win4_3.index ⟨(i 0).val / 512, _⟩ (1 : Fin 2) * 512 ≤ (i 1).val ∧ (i 1).val < win4_3.index ⟨(i 0).val / 512, _⟩ (1 : Fin 2) * 512 + 512
      rw [e7]; omega

end Cert.KernelIdeal.Mid4

end
-- ==== Proof.Last.lean ====
/-
  Region 5 of the program: the last layer, (A · Y)⁺, 512 rows at a time.

  Point t of the 16-point grid reads rows 512·t … 512·t + 511 of the 8192 × 8192 adjacency array A and the whole
  8192 × 512 array Y, and writes rows 512·t … 512·t + 511 of the 8192 × 512 result. Entry (p, j) of (A · Y)⁺ reads row
  p of A only, so what point t writes back is its block of rows of (A · Y)⁺ of the whole arrays; the sixteen blocks
  tile the result.
-/
import proofs.«121158_j31250182045963_2_alg».proof.Proof.Gen.KernelIdeal.Frame
import proofs.«121158_j31250182045963_2_alg».proof.Proof.LibGcn
import Idealize.ShloMosaic.Lib.Pipeline.Value

set_option maxRecDepth 16384

noncomputable section

namespace Cert.KernelIdeal.Last

open Cert.KernelIdeal Cert.KernelIdeal.Gen Cert.Spec Cert.LibGcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the positive part of the product of its two loaded blocks. -/
theorem pay (x0 : Vec Ideal S512x8192 .bf16) (x1 : Vec Ideal S8192x512 .bf16) :
    k5_pay1 x0 x1 = relu (mm x0 x1) := by
  unfold k5_pay1
  simp only [shapeCast_self]
  exact body_last _ rfl (φ₁ := .bf16) (φ₂ := .bf16) x0 x1

/-- The index maps over the grid: the adjacency window and the result window are at block row t, block column 0; the
    Y window stays at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The Y window's block is the whole array Y at every point. -/
theorem blk_Y (c : Dev nD) (t : Fin cfg5.N) : (iblk5 V c 1 t : Mat 8192 512) = (V c main_v13 : Mat 8192 512) := by
  obtain ⟨-, -, e2, e3, -⟩ := idx_facts t
  funext y
  show (V c main_v13 : Mat 8192 512) (((cfg5.win 1).blk t).view.emb y) = (V c main_v13 : Mat 8192 512) y
  refine congrArg _ (funext fun a => Fin.ext ?_)
  match a with
  | ⟨0, _⟩ => show win5_1.index t (0 : Fin 2) * 8192 + 1 * (y 0).val = (y 0).val; omega
  | ⟨1, _⟩ => show win5_1.index t (1 : Fin 2) * 512 + 1 * (y 1).val = (y 1).val; omega

/-- Row p of the adjacency window's block at point t is row 512·t + p of A. -/
theorem blk_A (c : Dev nD) (t : Fin cfg5.N) (p : Fin 512) (p' : Fin 8192) (hp : p'.val = t.val * 512 + p.val) (s : Fin 8192) :
    (iblk5 V c 0 t : Mat 512 8192) (ix2 p s) = (V c main_v9_0 : Mat 8192 8192) (ix2 p' s) := by
  obtain ⟨e0, e1, -⟩ := idx_facts t
  show (V c main_v9_0 : Mat 8192 8192) (((cfg5.win 0).blk t).view.emb (ix2 p s)) = (V c main_v9_0 : Mat 8192 8192) (ix2 p' s)
  refine congrArg _ (funext fun a => Fin.ext ?_)
  match a with
  | ⟨0, _⟩ => show win5_0.index t (0 : Fin 2) * 512 + 1 * p.val = p'.val; omega
  | ⟨1, _⟩ => show win5_0.index t (1 : Fin 2) * 8192 + 1 * s.val = s.val; omega

/-- What point t writes back is its block of (A · Y)⁺ of the whole arrays. -/
theorem flushed_eq (c : Dev nD) (t : Fin cfg5.N) :
    (dat5 V c).flushed 2 t = ((cfg5.win 2).blk t).view.read (Elt Ideal)
      (relu (mm (V c main_v9_0 : Mat 8192 8192) (V c main_v13 : Mat 8192 512)) : Mat 8192 512) := by
  show (cfg5.win 2).cut (grid5.coords t) ((dat5 V c).after 2 t) = _
  rw [after5_2]
  unfold out5_2
  rw [View.canon_unit_zero hz]
  simp only [View.ld_unit_zero (S := S512x8192) hz, View.ld_unit_zero (S := S8192x512) hz]
  rw [pay]
  have ht : t.val < 16 := Nat.lt_of_lt_of_eq t.isLt N_5
  obtain ⟨-, -, -, -, e4, e5⟩ := idx_facts t
  funext j
  obtain ⟨p, q, rfl⟩ : ∃ (p : Fin 512) (q : Fin 512), j = ix2 p q := ⟨j 0, j 1, eq_ix2 j⟩
  have hemb : ((cfg5.win 2).blk t).view.emb (ix2 p q) = ix2 (⟨t.val * 512 + p.val, by omega⟩ : Fin 8192) q :=
    funext fun a => Fin.ext (by
      match a with
      | ⟨0, _⟩ => show win5_2.index t (0 : Fin 2) * 512 + 1 * p.val = t.val * 512 + p.val; omega
      | ⟨1, _⟩ => show win5_2.index t (1 : Fin 2) * 512 + 1 * q.val = q.val; omega)
  show relu (mm (iblk5 V c 0 t : Mat 512 8192) (iblk5 V c 1 t : Mat 8192 512)) (ix2 p q)
    = relu (mm (V c main_v9_0 : Mat 8192 8192) (V c main_v13 : Mat 8192 512)) (((cfg5.win 2).blk t).view.emb (ix2 p q))
  rw [hemb, blk_Y V c t]
  exact last_rows _ _ _ p _ q (fun s => blk_A V c t p _ rfl s)

/-- An index of the result is in point t's block iff each coordinate is in the block's range. -/
theorem mem_blk (t : Fin cfg5.N) (i : S8192x512.Idx) :
    i ∈ ((cfg5.win 2).blk t).view.set ↔ ∀ a : Fin 2, win5_2.index t a * S512x512.size a ≤ (i a).val ∧ (i a).val < win5_2.index t a * S512x512.size a + S512x512.size a := by
  show i ∈ ((View.whole main_v14).slice (win5_2.rect t)).set ↔ _
  rw [View.set_slice_whole, Rect.mem_set_unit]
  exact Iff.rfl

/-- The result array after the region: (A · Y)⁺ of the arrays the region was entered with. -/
theorem arr (c : Dev nD) : (dat5 V c).arrAt 2 cfg5.N
    = (relu (mm (V c main_v9_0 : Mat 8192 8192) (V c main_v13 : Mat 8192 512)) : Mat 8192 512) :=
  (dat5 V c).arrAt_eq_of_cover 2 _ (fun t _ => flushed_eq V c t) fun i => by
    have hi0 : (i 0).val < 8192 := (i 0).isLt
    have hi1 : (i 1).val < 512 := (i 1).isLt
    have hN : cfg5.N = 16 := N_5
    obtain ⟨-, -, -, -, e4, e5⟩ := idx_facts ⟨(i 0).val / 512, by rw [hN]; omega⟩
    refine ⟨⟨(i 0).val / 512, by rw [hN]; omega⟩, flush5_2 _, ?_⟩
    rw [mem_blk]
    intro a
    match a with
    | ⟨0, _⟩ =>
      show win5_2.index ⟨(i 0).val / 512, _⟩ (0 : Fin 2) * 512 ≤ (i 0).val ∧ (i 0).val < win5_2.index ⟨(i 0).val / 512, _⟩ (0 : Fin 2) * 512 + 512
      rw [e4]; show (i 0).val / 512 * 512 ≤ (i 0).val ∧ (i 0).val < (i 0).val / 512 * 512 + 512; omega
    | ⟨1, _⟩ =>
      show win5_2.index ⟨(i 0).val / 512, _⟩ (1 : Fin 2) * 512 ≤ (i 1).val ∧ (i 1).val < win5_2.index ⟨(i 0).val / 512, _⟩ (1 : Fin 2) * 512 + 512
      rw [e5]; omega

end Cert.KernelIdeal.Last

end
-- ==== Proof.Spec.lean ====
/-
  The six-layer graph autoencoder as one function of its arguments, over the extended reals, for any sizes.

  With A the adjacency matrix, X the features and W1 … W6 the layers' weights, each layer is
  Z ↦ (A · (Z · W))⁺. Grouped the way a fused implementation computes it — the product with the next layer's weights
  taken as soon as the positive part is known — the chain is
    Y1 = X · W1,  Y(l+1) = (A · Yl)⁺ · W(l+1) for l = 1 … 5,  result = (A · Y6)⁺,
  which is the same expression, only read with other brackets: no law of arithmetic is used to pass from one to the
  other, so nothing is asked of the entries (they may be infinite).
-/
import proofs.«121158_j31250182045963_2_alg».proof.Proof.LibGcn

noncomputable section

namespace Cert.Spec

open Cert.LibGcn

variable {N f h1 h2 h3 h4 h5 g : ℕ}

/-- (A · Y6)⁺ with Y1 = X · W1 and Y(l+1) = (A · Yl)⁺ · W(l+1). -/
def autoencoder (X : Mat N f) (A : Mat N N) (W1 : Mat f h1) (W2 : Mat h1 h2) (W3 : Mat h2 h3) (W4 : Mat h3 h4)
    (W5 : Mat h4 h5) (W6 : Mat h5 g) : Mat N g :=
  relu (mm A (layer A (layer A (layer A (layer A (layer A (mm X W1) W2) W3) W4) W5) W6))

/-- The same chain, layer by layer: Z ↦ (A · (Z · W))⁺ six times. -/
theorem autoencoder_eq_layers (X : Mat N f) (A : Mat N N) (W1 : Mat f h1) (W2 : Mat h1 h2) (W3 : Mat h2 h3) (W4 : Mat h3 h4)
    (W5 : Mat h4 h5) (W6 : Mat h5 g) :
    autoencoder X A W1 W2 W3 W4 W5 W6
      = relu (mm A (mm (relu (mm A (mm (relu (mm A (mm (relu (mm A (mm (relu (mm A (mm (relu (mm A (mm X W1))) W2))) W3))) W4))) W5))) W6)) := rfl

/-- A layer of equal arrays. -/
theorem layer_congr {r n h e : ℕ} {A A' : Mat r n} {Y Y' : Mat n h} {W W' : Mat h e} (hA : A = A') (hY : Y = Y') (hW : W = W') :
    layer A Y W = layer A' Y' W' := by subst hA hY hW; rfl

end Cert.Spec

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.Chain.lean ====
/-
  The value the program leaves in its result buffer: the six-layer autoencoder of its arguments.

  The program's buffers are followed from the launch memory through its seven segments. The line of host operations
  changes the weights' and the features' float format (the identity on the extended reals) and forms Y1 = X · W1. Region 0
  copies the adjacency array A and forms Y2; regions 1 to 4 form Y3 … Y6, each from the copy of A, the previous Y and its
  own weights; region 5 forms (A · Y6)⁺. A region leaves every buffer it does not write as it found it, so at each
  boundary the copy of A is A, the weights are the launch weights, and the newest Y is the layer of the previous one.
-/
import proofs.«121158_j31250182045963_2_alg».proof.Proof.Gen.KernelIdeal.Frame
import proofs.«121158_j31250182045963_2_alg».proof.Proof.First
import proofs.«121158_j31250182045963_2_alg».proof.Proof.Mid1
import proofs.«121158_j31250182045963_2_alg».proof.Proof.Mid2
import proofs.«121158_j31250182045963_2_alg».proof.Proof.Mid3
import proofs.«121158_j31250182045963_2_alg».proof.Proof.Mid4
import proofs.«121158_j31250182045963_2_alg».proof.Proof.Last
import proofs.«121158_j31250182045963_2_alg».proof.Proof.Spec
import proofs.«121158_j31250182045963_2_alg».proof.Proof.LibHostKeeps
import Idealize.ShloMosaic.Lib.StableHlo.Run

set_option maxRecDepth 16384

noncomputable section

namespace Cert.KernelIdeal.Chain

open Cert.KernelIdeal Cert.KernelIdeal.Gen Cert.Spec Cert.LibGcn Cert.LibHostKeeps
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The arguments, and the chain of arrays -/

abbrev aX : Mat 8192 512 := m ((c : Thread nD τ).loc main_arg0)
abbrev aA : Mat 8192 8192 := m ((c : Thread nD τ).loc main_arg1)
abbrev aW1 : Mat 512 256 := m ((c : Thread nD τ).loc main_arg2)
abbrev aW2 : Mat 256 256 := m ((c : Thread nD τ).loc main_arg3)
abbrev aW3 : Mat 256 128 := m ((c : Thread nD τ).loc main_arg4)
abbrev aW4 : Mat 128 256 := m ((c : Thread nD τ).loc main_arg5)
abbrev aW5 : Mat 256 256 := m ((c : Thread nD τ).loc main_arg6)
abbrev aW6 : Mat 256 512 := m ((c : Thread nD τ).loc main_arg7)

def Y1 : Mat 8192 256 := mm (aX m c) (aW1 m c)
def Y2 : Mat 8192 256 := layer (aA m c) (Y1 m c) (aW2 m c)
def Y3 : Mat 8192 128 := layer (aA m c) (Y2 m c) (aW3 m c)
def Y4 : Mat 8192 256 := layer (aA m c) (Y3 m c) (aW4 m c)
def Y5 : Mat 8192 256 := layer (aA m c) (Y4 m c) (aW5 m c)
def Y6 : Mat 8192 512 := layer (aA m c) (Y5 m c) (aW6 m c)

/-! ## After the host operations -/

theorem host_A : (W1 m ρ c (Proc.devRef .tc main_arg1) : Mat 8192 8192) = aA m c :=
  (show W1 m ρ c (Proc.devRef .tc main_arg1) = W0 m ρ c (Proc.devRef .tc main_arg1) by host_keeps hostOps0).trans rfl

theorem host_W2 : (W1 m ρ c (Proc.devRef .tc main_v1) : Mat 256 256) = aW2 m c := by
  show (StableHlo.after hostOps0 (W0 m ρ c) (Proc.devRef .tc main_v1) : Mat 256 256) = _
  simp only [hostOps0]
  after_results
  rfl
theorem host_W3 : (W1 m ρ c (Proc.devRef .tc main_v2) : Mat 256 128) = aW3 m c := by
  show (StableHlo.after hostOps0 (W0 m ρ c) (Proc.devRef .tc main_v2) : Mat 256 128) = _
  simp only [hostOps0]
  after_results
  rfl
theorem host_W4 : (W1 m ρ c (Proc.devRef .tc main_v3) : Mat 128 256) = aW4 m c := by
  show (StableHlo.after hostOps0 (W0 m ρ c) (Proc.devRef .tc main_v3) : Mat 128 256) = _
  simp only [hostOps0]
  after_results
  rfl
theorem host_W5 : (W1 m ρ c (Proc.devRef .tc main_v4) : Mat 256 256) = aW5 m c := by
  show (StableHlo.after hostOps0 (W0 m ρ c) (Proc.devRef .tc main_v4) : Mat 256 256) = _
  simp only [hostOps0]
  after_results
  rfl
theorem host_W6 : (W1 m ρ c (Proc.devRef .tc main_v5) : Mat 256 512) = aW6 m c := by
  show (StableHlo.after hostOps0 (W0 m ρ c) (Proc.devRef .tc main_v5) : Mat 256 512) = _
  simp only [hostOps0]
  after_results
  rfl
theorem host_Y1 : (W1 m ρ c (Proc.devRef .tc main_v8) : Mat 8192 256) = Y1 m c := by
  show (StableHlo.after hostOps0 (W0 m ρ c) (Proc.devRef .tc main_v8) : Mat 8192 256) = _
  simp only [hostOps0]
  after_results
  exact dotGeneral_eq_mm dot_S8192x512_S512x256_S8192x256_1_0_0_1_n_n rfl none (φ₁ := .bf16) (φ₂ := .bf16) (aX m c) (aW1 m c)

/-! ## After region 0 -/

theorem r0_A : (W2 m ρ c (Proc.devRef .tc main_v9_0) : Mat 8192 8192) = aA m c :=
  (W2_arr m ρ c 3).trans ((First.arr_copy (V1 m ρ) c).trans (host_A m ρ c))
theorem r0_Y2 : (W2 m ρ c (Proc.devRef .tc main_v9_1) : Mat 8192 256) = Y2 m c :=
  (W2_arr m ρ c 4).trans ((First.arr (V1 m ρ) c).trans (layer_congr (host_A m ρ c) (host_Y1 m ρ c) (host_W2 m ρ c)))
theorem r0_W3 : (W2 m ρ c (Proc.devRef .tc main_v2) : Mat 256 128) = aW3 m c :=
  (W2_of_ne m ρ c main_v2 (by decide)).trans (host_W3 m ρ c)
theorem r0_W4 : (W2 m ρ c (Proc.devRef .tc main_v3) : Mat 128 256) = aW4 m c :=
  (W2_of_ne m ρ c main_v3 (by decide)).trans (host_W4 m ρ c)
theorem r0_W5 : (W2 m ρ c (Proc.devRef .tc main_v4) : Mat 256 256) = aW5 m c :=
  (W2_of_ne m ρ c main_v4 (by decide)).trans (host_W5 m ρ c)
theorem r0_W6 : (W2 m ρ c (Proc.devRef .tc main_v5) : Mat 256 512) = aW6 m c :=
  (W2_of_ne m ρ c main_v5 (by decide)).trans (host_W6 m ρ c)

/-! ## After region 1 -/

theorem r1_A : (W3 m ρ c (Proc.devRef .tc main_v9_0) : Mat 8192 8192) = aA m c :=
  (W3_arr m ρ c 0).trans ((((dat1 (V2 m ρ) c).arrAt_in 0 rfl _).trans (A_eq1 (V2 m ρ) c 0)).trans (r0_A m ρ c))
theorem r1_Y3 : (W3 m ρ c (Proc.devRef .tc main_v10) : Mat 8192 128) = Y3 m c :=
  (W3_arr m ρ c 3).trans ((Mid1.arr (V2 m ρ) c).trans (layer_congr (r0_A m ρ c) (r0_Y2 m ρ c) (r0_W3 m ρ c)))
theorem r1_W4 : (W3 m ρ c (Proc.devRef .tc main_v3) : Mat 128 256) = aW4 m c :=
  (W3_of_ne m ρ c main_v3 (by decide)).trans (r0_W4 m ρ c)
theorem r1_W5 : (W3 m ρ c (Proc.devRef .tc main_v4) : Mat 256 256) = aW5 m c :=
  (W3_of_ne m ρ c main_v4 (by decide)).trans (r0_W5 m ρ c)
theorem r1_W6 : (W3 m ρ c (Proc.devRef .tc main_v5) : Mat 256 512) = aW6 m c :=
  (W3_of_ne m ρ c main_v5 (by decide)).trans (r0_W6 m ρ c)

/-! ## After region 2 -/

theorem r2_A : (W4 m ρ c (Proc.devRef .tc main_v9_0) : Mat 8192 8192) = aA m c :=
  (W4_arr m ρ c 0).trans ((((dat2 (V3 m ρ) c).arrAt_in 0 rfl _).trans (A_eq2 (V3 m ρ) c 0)).trans (r1_A m ρ c))
theorem r2_Y4 : (W4 m ρ c (Proc.devRef .tc main_v11) : Mat 8192 256) = Y4 m c :=
  (W4_arr m ρ c 3).trans ((Mid2.arr (V3 m ρ) c).trans (layer_congr (r1_A m ρ c) (r1_Y3 m ρ c) (r1_W4 m ρ c)))
theorem r2_W5 : (W4 m ρ c (Proc.devRef .tc main_v4) : Mat 256 256) = aW5 m c :=
  (W4_of_ne m ρ c main_v4 (by decide)).trans (r1_W5 m ρ c)
theorem r2_W6 : (W4 m ρ c (Proc.devRef .tc main_v5) : Mat 256 512) = aW6 m c :=
  (W4_of_ne m ρ c main_v5 (by decide)).trans (r1_W6 m ρ c)

/-! ## After region 3 -/

theorem r3_A : (W5 m ρ c (Proc.devRef .tc main_v9_0) : Mat 8192 8192) = aA m c :=
  (W5_arr m ρ c 0).trans ((((dat3 (V4 m ρ) c).arrAt_in 0 rfl _).trans (A_eq3 (V4 m ρ) c 0)).trans (r2_A m ρ c))
theorem r3_Y5 : (W5 m ρ c (Proc.devRef .tc main_v12) : Mat 8192 256) = Y5 m c :=
  (W5_arr m ρ c 3).trans ((Mid3.arr (V4 m ρ) c).trans (layer_congr (r2_A m ρ c) (r2_Y4 m ρ c) (r2_W5 m ρ c)))
theorem r3_W6 : (W5 m ρ c (Proc.devRef .tc main_v5) : Mat 256 512) = aW6 m c :=
  (W5_of_ne m ρ c main_v5 (by decide)).trans (r2_W6 m ρ c)

/-! ## After region 4 -/

theorem r4_A : (W6 m ρ c (Proc.devRef .tc main_v9_0) : Mat 8192 8192) = aA m c :=
  (W6_arr m ρ c 0).trans ((((dat4 (V5 m ρ) c).arrAt_in 0 rfl _).trans (A_eq4 (V5 m ρ) c 0)).trans (r3_A m ρ c))
theorem r4_Y6 : (W6 m ρ c (Proc.devRef .tc main_v13) : Mat 8192 512) = Y6 m c :=
  (W6_arr m ρ c 3).trans ((Mid4.arr (V5 m ρ) c).trans (layer_congr (r3_A m ρ c) (r3_Y5 m ρ c) (r3_W6 m ρ c)))

/-! ## After region 5: the result -/

/-- The result buffer ends at the autoencoder of the arguments. -/
theorem result : (W7 m ρ c (Proc.devRef .tc main_v14) : Mat 8192 512)
    = autoencoder (aX m c) (aA m c) (aW1 m c) (aW2 m c) (aW3 m c) (aW4 m c) (aW5 m c) (aW6 m c) :=
  (W7_arr m ρ c 2).trans ((Last.arr (V6 m ρ) c).trans
    (congrArg relu (congrArg₂ mm (r4_A m ρ c) (r4_Y6 m ρ c))))

end Cert.KernelIdeal.Chain

end
-- ==== Proof.RefValue.lean ====
/-
  The reference program's result is the six-layer autoencoder of its arguments.

  The reference applies, six times, a product with the layer's weights, a product with the adjacency matrix and the
  maximum with a zero constant broadcast to the result's shape. Read at the extended reals each such triple is
  Z ↦ (A · (Z · W))⁺, and six of them are the autoencoder by definition.
-/
import proofs.«121158_j31250182045963_2_alg».proof.Proof.Gen.ReferenceIdeal.Run
import proofs.«121158_j31250182045963_2_alg».proof.Proof.Spec

noncomputable section

namespace Cert.ReferenceIdeal.RefValue

open Cert.ReferenceIdeal Cert.ReferenceIdeal.Gen Cert.Spec Cert.LibGcn
open Idealize.ShloMosaic Idealize.ShloMosaic.TcCoe Idealize.SL.Sem

/-- The composed term of the reference's run, at the extended reals, is the autoencoder of the arguments. -/
theorem result_eq (X : FVec Ideal S8192x512 .f32) (A : FVec Ideal S8192x8192 .f32) (W1 : FVec Ideal S512x256 .f32)
    (W2 : FVec Ideal S256x256 .f32) (W3 : FVec Ideal S256x128 .f32) (W4 : FVec Ideal S128x256 .f32)
    (W5 : FVec Ideal S256x256 .f32) (W6 : FVec Ideal S256x512 .f32) :
    maximumf (Host.dotGeneral dot_S8192x8192_S8192x512_S8192x512_1_0_0_1_n_n none A (Host.dotGeneral dot_S8192x256_S256x512_S8192x512_1_0_0_1_n_n none (maximumf (Host.dotGeneral dot_S8192x8192_S8192x256_S8192x256_1_0_0_1_n_n none A (Host.dotGeneral dot_S8192x256_S256x256_S8192x256_1_0_0_1_n_n none (maximumf (Host.dotGeneral dot_S8192x8192_S8192x256_S8192x256_1_0_0_1_n_n none A (Host.dotGeneral dot_S8192x128_S128x256_S8192x256_1_0_0_1_n_n none (maximumf (Host.dotGeneral dot_S8192x8192_S8192x128_S8192x128_1_0_0_1_n_n none A (Host.dotGeneral dot_S8192x256_S256x128_S8192x128_1_0_0_1_n_n none (maximumf (Host.dotGeneral dot_S8192x8192_S8192x256_S8192x256_1_0_0_1_n_n none A (Host.dotGeneral dot_S8192x256_S256x256_S8192x256_1_0_0_1_n_n none (maximumf (Host.dotGeneral dot_S8192x8192_S8192x256_S8192x256_1_0_0_1_n_n none A (Host.dotGeneral dot_S8192x512_S512x256_S8192x256_1_0_0_1_n_n none X W1)) (broadcastInDim S8192x256 ![] bcast_S_S8192x256 (constant (F := Ideal) S_ .f32 0x00000000#32))) W2)) (broadcastInDim S8192x256 ![] bcast_S_S8192x256 (constant (F := Ideal) S_ .f32 0x00000000#32))) W3)) (broadcastInDim S8192x128 ![] bcast_S_S8192x128 (constant (F := Ideal) S_ .f32 0x00000000#32))) W4)) (broadcastInDim S8192x256 ![] bcast_S_S8192x256 (constant (F := Ideal) S_ .f32 0x00000000#32))) W5)) (broadcastInDim S8192x256 ![] bcast_S_S8192x256 (constant (F := Ideal) S_ .f32 0x00000000#32))) W6)) (broadcastInDim S8192x512 ![] bcast_S_S8192x512 (constant (F := Ideal) S_ .f32 0x00000000#32))
      = (autoencoder (X : Mat 8192 512) (A : Mat 8192 8192) (W1 : Mat 512 256) (W2 : Mat 256 256) (W3 : Mat 256 128) (W4 : Mat 128 256) (W5 : Mat 256 256) (W6 : Mat 256 512) : Mat 8192 512) := by
  rw [host_layer (s0 := S_) dot_S8192x512_S512x256_S8192x256_1_0_0_1_n_n rfl dot_S8192x8192_S8192x256_S8192x256_1_0_0_1_n_n rfl ![] bcast_S_S8192x256 A X W1]
  rw [host_layer (s0 := S_) dot_S8192x256_S256x256_S8192x256_1_0_0_1_n_n rfl dot_S8192x8192_S8192x256_S8192x256_1_0_0_1_n_n rfl ![] bcast_S_S8192x256 A _ W2]
  rw [host_layer (s0 := S_) dot_S8192x256_S256x128_S8192x128_1_0_0_1_n_n rfl dot_S8192x8192_S8192x128_S8192x128_1_0_0_1_n_n rfl ![] bcast_S_S8192x128 A _ W3]
  rw [host_layer (s0 := S_) dot_S8192x128_S128x256_S8192x256_1_0_0_1_n_n rfl dot_S8192x8192_S8192x256_S8192x256_1_0_0_1_n_n rfl ![] bcast_S_S8192x256 A _ W4]
  rw [host_layer (s0 := S_) dot_S8192x256_S256x256_S8192x256_1_0_0_1_n_n rfl dot_S8192x8192_S8192x256_S8192x256_1_0_0_1_n_n rfl ![] bcast_S_S8192x256 A _ W5]
  rw [host_layer (s0 := S_) dot_S8192x256_S256x512_S8192x512_1_0_0_1_n_n rfl dot_S8192x8192_S8192x512_S8192x512_1_0_0_1_n_n rfl ![] bcast_S_S8192x512 A _ W6]
  exact (autoencoder_eq_layers _ _ _ _ _ _ _ _).symm

end Cert.ReferenceIdeal.RefValue

end
-- ==== Proof.lean ====
/-
  A six-layer graph autoencoder, fused on the accelerator, against its layer-by-layer reference.

  With A the 8192 × 8192 adjacency matrix, X the 8192 × 512 features and W1 … W6 the weights, the reference computes
  Z ↦ (A · (Z · W))⁺ six times. The kernel program forms Y1 = X · W1 on the host, then runs six kernels over blocks of
  rows of A: the first copies A in a narrower float format and forms Y2 = (A · Y1)⁺ · W2; the next four form
  Y(l+1) = (A · Yl)⁺ · W(l+1) from the copy; the last forms (A · Y6)⁺. Every change of float format is the identity on
  the extended reals, a matrix-unit product into a zero accumulator and a host dot_general are the same sum over the
  inner index, and entry (p, j) of (A · Y)⁺ · W reads row p of A only, so each kernel's row blocks assemble to the layer
  of the whole arrays. The two programs then compute one expression — the same products and positive parts, bracketed
  alike — so they agree entry by entry for all extended-real inputs, and the precondition (finite inputs) is not used.

  The three frames are the generated ones (the reference's is its generated run with the result dropped); the kernel
  idealizes with no rewrite, so there is nothing to preserve; the value claim joins the kernel's run with its result
  buffer named (Proof/Run.lean), that buffer's contents followed through the seven segments (Proof/Chain.lean, over one
  module per kernel), and the reference's run read as the same function (Proof/RefValue.lean).
-/
import proofs.«121158_j31250182045963_2_alg».proof.Defs
import proofs.«121158_j31250182045963_2_alg».proof.Proof.Gen.Kernel
import proofs.«121158_j31250182045963_2_alg».proof.Proof.Gen.Kernel.Frame
import proofs.«121158_j31250182045963_2_alg».proof.Proof.Gen.KernelIdeal
import proofs.«121158_j31250182045963_2_alg».proof.Proof.Gen.KernelIdeal.Frame
import proofs.«121158_j31250182045963_2_alg».proof.Proof.Gen.ReferenceIdeal
import proofs.«121158_j31250182045963_2_alg».proof.Proof.Gen.ReferenceIdeal.Run
import proofs.«121158_j31250182045963_2_alg».proof.Proof.Gen.Pre_finite_inputs
import proofs.«121158_j31250182045963_2_alg».proof.Proof.Run
import proofs.«121158_j31250182045963_2_alg».proof.Proof.Chain
import proofs.«121158_j31250182045963_2_alg».proof.Proof.RefValue
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: no rewrite was made. -/
theorem preserves : Cert.preserves_Kernel_KernelIdeal := trivial

/-- Both programs end with the autoencoder of the (agreeing) arguments in their result buffers. -/
theorem algebraic : Cert.algebraic_KernelIdeal_ReferenceIdeal := by
  intro m ρ m' ρ' _ hagree
  refine ⟨fun c => (autoencoder (Cert.KernelIdeal.Chain.aX m c) (Cert.KernelIdeal.Chain.aA m c) (Cert.KernelIdeal.Chain.aW1 m c)
      (Cert.KernelIdeal.Chain.aW2 m c) (Cert.KernelIdeal.Chain.aW3 m c) (Cert.KernelIdeal.Chain.aW4 m c)
      (Cert.KernelIdeal.Chain.aW5 m c) (Cert.KernelIdeal.Chain.aW6 m c) : Mat 8192 512), ?_, ?_⟩
  · exact (θ_run Cert.KernelIdeal.defs _ _).mono
      (fun _ h c => ⟨(h c).1.trans (Cert.KernelIdeal.Chain.result m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
